-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S64x2048 : Shape := ⟨2, ![64, 2048]⟩
abbrev S64 : Shape := ⟨1, ![64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x2048 .f32) (main_arg1 : FVec F S64x2048 .f32) (main_arg2 : FVec F S64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x2048 : Shape := ⟨2, ![8192, 2048]⟩
abbrev S64x2048 : Shape := ⟨2, ![64, 2048]⟩
abbrev S64 : Shape := ⟨1, ![64]⟩
abbrev S1x64 : Shape := ⟨2, ![1, 64]⟩
abbrev S4096x64 : Shape := ⟨2, ![4096, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩
abbrev S8192x64 : Shape := ⟨2, ![8192, 64]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S4096x64, .f32⟩
  | .hbm, ⟨5, _⟩ => ⟨S4096x64, .f32⟩
  | .hbm, ⟨6, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S1024x2048_S1024x2048_0_0 : ∀ a, (![0, 0] : Fin 2 → Nat) a + S1024x2048.size a ≤ S1024x2048.size a
  h_S1024x2048 : 0 < S1024x2048.numel
  inb_S64x2048_S64x2048_0_0 : ∀ a, (![0, 0] : Fin 2 → Nat) a + S64x2048.size a ≤ S64x2048.size a
  h_S64x2048 : 0 < S64x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  concatenates_S4096x64_S4096x64_S8192x64_d0 : Shape.Concatenates [S4096x64, S4096x64] S8192x64 0
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .f32 = 32 ∨ (Rect.block (s := S8192x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S4096x64.size a
  hwx0_4 : ∀ i : grid0.Coords, EltTy.bits .f32 = 32 ∨ (Rect.block (s := S4096x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S4096x64.size a
  hwx0_5 : ∀ i : grid0.Coords, EltTy.bits .f32 = 32 ∨ (Rect.block (s := S4096x64) S1024x64.size (cc0_transform_5 i) (hinb0_5 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S64x2048 : Shape := ⟨2, ![64, 2048]⟩
abbrev S64 : Shape := ⟨1, ![64]⟩
abbrev S2048x64 : Shape := ⟨2, ![2048, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x64, .f32⟩
  | .hbm, ⟨21, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x2048_S2048x64_S8192x64_1_0_0_1_n_n_wf : DotDims.WF S8192x2048 S2048x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.BitsBody.lean ====
/-
  The body of the gating kernel at one grid point, as a triple: it reads two row blocks of the token
  matrix, the whole weight matrix and the bias row, and leaves in each of its two result buffers the
  softmax over the 64 experts of (block · Wᵀ + bias), row by row. What it leaves is named as the
  canonical contents of its one store per buffer over the payload of that store.
-/
import proofs.«113094_g19353122636550_cont_8to1_249_11_alg».proof.Proof.Gen.Kernel.Launch
import proofs.«113094_g19353122636550_cont_8to1_249_11_alg».proof.Proof.Gen.Kernel.Skeleton
import proofs.«113094_g19353122636550_cont_8to1_249_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each is its whole buffer -/

abbrev rX : Rect S1024x2048 := Rect.unit (s := S1024x2048) ![0, 0] S1024x2048.size inb_S1024x2048_S1024x2048_0_0
abbrev rW : Rect S64x2048 := Rect.unit (s := S64x2048) ![0, 0] S64x2048.size inb_S64x2048_S64x2048_0_0
abbrev rB : Rect S1x64 := Rect.unit (s := S1x64) ![0, 0] S1x64.size inb_S1x64_S1x64_0_0
abbrev rO : Rect S1024x64 := Rect.unit (s := S1024x64) ![0, 0] S1024x64.size inb_S1024x64_S1024x64_0_0

/-! ## What the body leaves in its two result buffers -/

/-- The first result buffer after the body: the gates of the first row block. -/
def gatesTop (x : Vec F S1024x2048 .f32) (w : Vec F S64x2048 .f32) (b : Vec F S1x64 .f32) : Vec F S1024x64 .f32 :=
  View.canon [⟨rO, k0_pay1 (View.ld x rX) (View.ld w rW) (View.ld b rB)⟩]

/-- The second result buffer after the body: the gates of the second row block. -/
def gatesBot (x : Vec F S1024x2048 .f32) (w : Vec F S64x2048 .f32) (b : Vec F S1x64 .f32) : Vec F S1024x64 .f32 :=
  View.canon [⟨rO, k0_pay2 (View.ld x rX) (View.ld w rW) (View.ld b rB)⟩]

/-- The one store of a result buffer covers it. -/
theorem cover_out (p0 : Vec F S1024x64 .f32) (y : S1024x64.Idx) :
    ∃ pc ∈ ([⟨rO, p0⟩] : List (View.Piece (Elt F) S1024x64 .f32)), y ∈ pc.1.set :=
  View.cover_of_tiled [⟨rO, p0⟩] S1024x64.size (by rfl) y

/-! ## The body's triple -/

set_option maxHeartbeats 1000000 in
/-- On whole buffers — the two row blocks, the weights and the bias at read contents, the two result
    buffers at anything — the body runs to its continuation with the inputs as they were and each result
    buffer at the gates of its row block. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S64x2048 .f32) (harg3 : arg3.IsWhole) (arg4 : Memref sig .tc .vmem S1x64 .f32) (harg4 : arg4.IsWhole)
    (arg5 : Memref sig .tc .vmem S1024x64 .f32) (harg5 : arg5.IsWhole) (arg6 : Memref sig .tc .vmem S1024x64 .f32) (harg6 : arg6.IsWhole)
    (x1 x2 : Vec F S1024x2048 .f32) (x3 : Vec F S64x2048 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (gatesTop x1 x3 x4)
            ∗ owns (c : Thread nD τ) arg6 fullShare (gatesBot x2 x3 x4)) -∗ K ⟨⟩))
      ⊢ wp frame (wpE (defs₀ (F := F)) Variants.none c none) E (cc0__gating_kernel i arg1 harg1 arg2 harg2 arg3 harg3 arg4 harg4 arg5 harg5 arg6 harg6) K := by
  simp only [cc0__gating_kernel_eq_skeleton]; unfold cc0__gating_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_out _)
  · iexists _; isplitr
    swap; · iexact H6
    ipureintro
    exact View.read_writes_eq_canon _ _ _ (cover_out _)

end Cert.Kernel.Hand

end
-- ==== Proof.BitsData.lean ====
/-
  The proof data of the gating kernel's pipeline. The grid has four points; at point t the kernel is handed
  rows [1024·t, 1024·t + 1024) of the token matrix through one window and rows [1024·(t + 4), 1024·(t + 4) + 1024)
  of the SAME matrix through a second window, the whole weight matrix, and the bias as a row, and writes back
  block t of each of its two results. Since two windows read one array, each of them holds half of that array's
  share. After the body every input buffer holds its block, and each result buffer the gates of its row block.
-/
import proofs.«113094_g19353122636550_cont_8to1_249_11_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents up to the region -/

/-- Core `c`'s buffers at launch, -/
abbrev V0 (c : Dev nD) : Valuation τ sig (Elt F) := fun b => m (c, b)
/-- and when the region is entered: the bias has been reshaped to a row. -/
abbrev V1 (c : Dev nD) : Valuation τ sig (Elt F) := StableHlo.after hostOps0 (V0 m c)
/-- The same, read at a TensorCore reference. -/
abbrev V (c : Dev nD) (b : Ref sig .tc) : Buf (Elt F) ((c : Thread nD τ).loc b) := V1 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data
    on these arrays whose body leaves the block in place (one statement per input window). -/
theorem before_in_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gatesTop (iblk m c 0 t) (iblk m c 2 t) (iblk m c 3 t)
    | ⟨5, _⟩ => gatesBot (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = gatesTop (iblk m c 0 t) (iblk m c 2 t) (iblk m c 3 t) := by dsimp only [dats]
theorem after_5 (c : Dev nD) (t : Fin cfg0.N) :
    (dats m 0 c).after 5 t = gatesBot (iblk m c 1 t) (iblk m c 2 t) (iblk m c 3 t) := by dsimp only [dats]

theorem before_0 (c : Dev nD) (t : Fin cfg0.N) (d) : (dats m 0 c).before 0 t d = iblk m c 0 t :=
  before_in_of_0 m (dats m 0 c) (A_eq m c 0) (after_0 m c) t d
theorem before_1 (c : Dev nD) (t : Fin cfg0.N) (d) : (dats m 0 c).before 1 t d = iblk m c 1 t :=
  before_in_of_1 m (dats m 0 c) (A_eq m c 1) (after_1 m c) t d
theorem before_2 (c : Dev nD) (t : Fin cfg0.N) (d) : (dats m 0 c).before 2 t d = iblk m c 2 t :=
  before_in_of_2 m (dats m 0 c) (A_eq m c 2) (after_2 m c) t d
theorem before_3 (c : Dev nD) (t : Fin cfg0.N) (d) : (dats m 0 c).before 3 t d = iblk m c 3 t :=
  before_in_of_3 m (dats m 0 c) (A_eq m c 3) (after_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.lean ====
/-
  The run of the gating program: the bias reshaped to a row, the kernel's region over its four grid points,
  and the two results joined along the rows. Between these three stretches the core holds every buffer that
  outlives a region at a named valuation. The region is entered by handing the pipeline the five arrays
  its six windows read and write — the token matrix, read by two windows, split into two half shares —
  and is left by joining the halves again and taking the two results at what the pipeline computed.
  Concluded: every fair execution terminates, the joined result holds the concatenation of the two
  computed arrays, and the three arguments end as they began.
-/
import proofs.«113094_g19353122636550_cont_8to1_249_11_alg».proof.Proof.BitsData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between the three stretches -/

/-- What the region leaves in its first result array, -/
def topArr (c : Dev nD) : Buf (Elt F) ((c : Thread nD τ).loc main_v1_0) := (dats m 0 c).arrAt 4 cfg0.N
/-- and in its second. -/
def botArr (c : Dev nD) : Buf (Elt F) ((c : Thread nD τ).loc main_v1_1) := (dats m 0 c).arrAt 5 cfg0.N

/-- Core `c`'s buffers when the region is left: the two result arrays at what the pipeline wrote back. -/
abbrev V2 (c : Dev nD) : Valuation τ sig (Elt F) :=
  Function.update (Function.update (V1 m c) main_v1_0 (topArr m c)) main_v1_1 (botArr m c)
/-- Core `c`'s buffers at the end: the results joined. -/
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.binary_writes, Finset.singleton_subset_iff, List.mem_toFinset]; exact List.mem_map_of_mem (by decide))

theorem V1_of (c : Dev nD) (r : Ref sig .tc) (h : r ∉ ([main_v0] : List (Ref sig .tc))) : V1 m c r = V0 m c r :=
  StableHlo.after_of_writes_sub hostOps0 _ hostOps0_writes h
theorem V2_of (c : Dev nD) (r : Ref sig .tc) (h : r ∉ ([main_v1_0, main_v1_1] : List (Ref sig .tc))) : V2 m c r = V1 m c r := by
  have h0 : r ≠ main_v1_0 := fun e => h (e ▸ List.mem_cons_self)
  have h1 : r ≠ main_v1_1 := fun e => h (e ▸ List.mem_cons_of_mem _ List.mem_cons_self)
  simp only [V2, Function.update_of_ne (StableHlo.devRef_ne_of_ne h1 : (Proc.devRef .tc r : DevRef τ sig) ≠ Proc.devRef .tc main_v1_1),
    Function.update_of_ne (StableHlo.devRef_ne_of_ne h0 : (Proc.devRef .tc r : DevRef τ sig) ≠ Proc.devRef .tc main_v1_0)]
theorem V2_top (c : Dev nD) : V2 m c main_v1_0 = topArr m c := by
  simp only [V2, Function.update_of_ne (StableHlo.devRef_ne_of_ne (by decide : main_v1_0 ≠ main_v1_1) : (Proc.devRef .tc main_v1_0 : DevRef τ sig) ≠ Proc.devRef .tc main_v1_1),
    Function.update_self]
theorem V2_bot (c : Dev nD) : V2 m c main_v1_1 = botArr m c := by
  simp only [V2, Function.update_self]
theorem V3_of (c : Dev nD) (r : Ref sig .tc) (h : r ∉ ([main_v2] : List (Ref sig .tc))) : V3 m c r = V2 m c r :=
  StableHlo.after_of_writes_sub hostOps1 _ hostOps1_writes h

/-- Each argument reaches the end as launched. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl
theorem V3_main_arg2 (c : Dev nD) : V3 m c main_arg2 = m ((c : Thread nD τ).loc main_arg2) :=
  (V3_of m c main_arg2 (by decide)).trans <| (V2_of m c main_arg2 (by decide)).trans <| (V1_of m c main_arg2 (by decide)).trans rfl

/-! ## The arrays behind the windows, one by one -/

omit [FloatOps F] in
/-- The five distinct buffers behind the six windows' arrays. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1_0) ↦{fullShare} W main_v1_0)
          ∗ (((c : Thread nD τ).loc main_v1_1) ↦{fullShare} W main_v1_1)) := by
  unfold Pipeline.arrBufs
  exact bigSep_eq_bigSepL_of_eq [main_arg0, main_arg1, main_v0, main_v1_0, main_v1_1] (by decide) (by decide) _

/-- The pipeline's arrays at contents `G`, window by window: the token matrix twice, at its two half shares. -/
theorem arrays_eq (c : Dev nD) (G : (w : Fin cfg0.W) → Buf (Elt F) ((cfg0.win w).arr.view.loc (c.tc : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)
          ∗ (((c : Thread nD τ).loc main_v1_0) ↦{fullShare} G 4) ∗ (((c : Thread nD τ).loc main_v1_1) ↦{fullShare} G 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

end Cert.Kernel.Hand

end
-- ==== Proof.BitsLaunch.lean ====
/-
  The three stretches of the gating program as segments, and the launch. The region's entry deals the token
  matrix to its two windows as two half shares; its exit joins them, and takes the two results at what the
  pipeline wrote back. The final state is read off the last valuation.
-/
import proofs.«113094_g19353122636550_cont_8to1_249_11_alg».proof.Proof.BitsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- The pipeline has no prefetched table. -/
abbrev adm : (p : Fin 1) → (pcfgs (F := F) p).Adm := fun p => (cfgs p).toPCfg_adm

/-- What rides beside the buffers through every stretch: the core owing nothing. -/
abbrev R (c : Dev nD) : sProp 𝕄 := iprop(∃ W, owes (c : Thread nD τ) (0 : CellTallies nD τ sig Unit) W)

/-- The reshape of the bias, over the buffers that outlive a region. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-- The join of the two results, likewise. -/
def seg1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

/-- The buffers that outlive a region, held at a valuation, are the five behind the windows and the two others. -/
theorem held_eq (c : Dev nD) (W : Valuation τ sig (Elt F)) :
    (StableHlo.held (c : Thread nD τ) (Pipeline.ucRefs τ sig) W : sProp 𝕄)
      = iprop(((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1_0) ↦{fullShare} W main_v1_0)
          ∗ (((c : Thread nD τ).loc main_v1_1) ↦{fullShare} W main_v1_1))
        ∗ ((((c : Thread nD τ).loc main_arg2) ↦{fullShare} W main_arg2) ∗ (((c : Thread nD τ).loc main_v2) ↦{fullShare} W main_v2))) := by
  rw [← Pipeline.unscopedBufs_held (Ix := Unit) (Name := ℕ) (U := UR sig nD τ) (Lvl := ℕ) c W,
    Pipeline.unscopedBufs_split₀ cfgs 0 winFacts₀0.arr_unscoped c (fun b => W b), unscopedRest0_eq c (fun b => W b), arrBufs_eq c (fun b => W b)]

set_option backward.isDefEq.respectTransparency.types false in
/-- The region. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := iprop((((c : Thread nD τ).loc main_arg2) ↦{fullShare} V1 m c main_arg2) ∗ (((c : Thread nD τ).loc main_v2) ↦{fullShare} V1 m c main_v2))
  hentry c := by
    rw [held_eq c (V1 m c), arrays_eq m c]
    iintro ⟨⟨⟨⟨H0, H1, Hv0, H10, H11⟩, Ha2, Hv2⟩, HO⟩, -, -⟩
    ihave H0 := (pointsTo_share (PosShare.mem_left_op_right fullShare)).1 $$ H0
    icases H0 with ⟨H0l, H0r⟩
    imodintro
    isplitl [H0l H0r H1 Hv0 H10 H11]
    · isplitl [H0l]; · iexact H0l
      isplitl [H0r]; · iexact H0r
      isplitl [H1]; · iexact H1
      isplitl [Hv0]; · iexact Hv0
      isplitl [H10]; · iexact H10
      iexact H11
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha2]; · iexact Ha2
    iexact Hv2
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    have e0 : ∀ n, (dats m 0 c).arrAt 0 n = V1 m c main_arg0 := fun n => ((dats m 0 c).arrAt_in 0 rfl n).trans (A_eq m c 0)
    have e1 : ∀ n, (dats m 0 c).arrAt 1 n = V1 m c main_arg0 := fun n => ((dats m 0 c).arrAt_in 1 rfl n).trans (A_eq m c 1)
    have e2 : ∀ n, (dats m 0 c).arrAt 2 n = V1 m c main_arg1 := fun n => ((dats m 0 c).arrAt_in 2 rfl n).trans (A_eq m c 2)
    have e3 : ∀ n, (dats m 0 c).arrAt 3 n = V1 m c main_v0 := fun n => ((dats m 0 c).arrAt_in 3 rfl n).trans (A_eq m c 3)
    rw [held_eq c (V2 m c), arrays_eq m c, V2_of m c main_arg0 (by decide), V2_of m c main_arg1 (by decide), V2_of m c main_v0 (by decide),
      V2_top, V2_bot, V2_of m c main_arg2 (by decide), V2_of m c main_v2 (by decide)]
    simp only [e0, e1, e2, e3]
    iintro ⟨⟨H0l, H0r, H1, Hv0, H10, H11⟩, HO, -, Ha2, Hv2⟩
    ihave H0 := (pointsTo_share (PosShare.mem_left_op_right fullShare)).2 $$ [H0l H0r]
    · isplitl [H0l] <;> iassumption
    imodintro
    isplitr [HO]
    · isplitl [H0 H1 Hv0 H10 H11]
      · isplitl [H0]; · iexact H0
        isplitl [H1]; · iexact H1
        isplitl [Hv0]; · iexact Hv0
        isplitl [H10]; · iexact H10
        iexact H11
      · isplitl [Ha2]; · iexact Ha2
        iexact Hv2
    · unfold Pipeline.Dat.owesAt Pipeline.owesWithin
      icases HO with ⟨%W, -, HO⟩; iexists W; iexact HO

/-- The program as the list of its three stretches. -/
abbrev segs : List (Seg (pcfgs (F := F)) adm (dats m) () defs₀ Variants.none L lv) :=
  [.host (seg0 m), .region (reg0 m), .host (seg1 m)]

/-- The launch element: the pipeline's, at its staging cells. -/
def u₀ : UR sig nD τ := initOf (Pipeline.cells cfgs cellOf_inj) (Pipeline.launchToks cfgs cellOf_inj)

/-- The joined result at the end, from what the region wrote back: the first result's rows above the second's. -/
theorem V3_result (c : Dev nD) :
    V3 m c main_v2 = concatenate S8192x64 0 [⟨S4096x64, topArr m c⟩, ⟨S4096x64, botArr m c⟩] concatenates_S4096x64_S4096x64_S8192x64_d0 := by
  have h : V3 m c main_v2 = concatenate S8192x64 0 [⟨S4096x64, V2 m c main_v1_0⟩, ⟨S4096x64, V2 m c main_v1_1⟩] concatenates_S4096x64_S4096x64_S8192x64_d0 := by
    show StableHlo.after hostOps1 (V2 m c) (Proc.devRef .tc main_v2) = _
    after_results
  rw [h, V2_top, V2_bot]

set_option backward.isDefEq.respectTransparency.types false in
/-- From any memory with every semaphore at zero, every fair execution of the program terminates without a fault;
    at the end the joined result holds the two computed arrays one above the other, and the three arguments hold
    what they held at launch. -/
theorem run_main : θ_run defs (onTc (τ := τ) (main (F := F))) ⟨m, fun _ => 0, ρ⟩ (fun r => ∀ c : Dev nD,
      r.2.mem ((c.tc : Thread nD τ).loc main_v2) = V3 m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v2) = V3 m c main_v2
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨h (Proc.devRef .tc main_v2) (Finset.mem_filter.mpr ⟨StableHlo.devRef_mem_tcRefs main_v2, by decide⟩),
          (h (Proc.devRef .tc main_arg0) (Finset.mem_filter.mpr ⟨StableHlo.devRef_mem_tcRefs main_arg0, by decide⟩)).trans (V3_main_arg0 m c),
          (h (Proc.devRef .tc main_arg1) (Finset.mem_filter.mpr ⟨StableHlo.devRef_mem_tcRefs main_arg1, by decide⟩)).trans (V3_main_arg1 m c),
          (h (Proc.devRef .tc main_arg2) (Finset.mem_filter.mpr ⟨StableHlo.devRef_mem_tcRefs main_arg2, by decide⟩)).trans (V3_main_arg2 m c)⟩
      · iexact HSI)
    (hQ := fun _ h => h)

/-- The frame: every fair execution terminates without a fault and the arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.IdealBody.lean ====
/-
  The body of the gating kernel at one grid point, as a triple: it reads two row blocks of the token
  matrix, the whole weight matrix and the bias row, and leaves in each of its two result buffers the
  softmax over the 64 experts of (block · Wᵀ + bias), row by row. What it leaves is named as the
  canonical contents of its one store per buffer over the payload of that store.
-/
import proofs.«113094_g19353122636550_cont_8to1_249_11_alg».proof.Proof.Gen.KernelIdeal.Launch
import proofs.«113094_g19353122636550_cont_8to1_249_11_alg».proof.Proof.Gen.KernelIdeal.Skeleton
import proofs.«113094_g19353122636550_cont_8to1_249_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each is its whole buffer -/

abbrev rX : Rect S1024x2048 := Rect.unit (s := S1024x2048) ![0, 0] S1024x2048.size inb_S1024x2048_S1024x2048_0_0
abbrev rW : Rect S64x2048 := Rect.unit (s := S64x2048) ![0, 0] S64x2048.size inb_S64x2048_S64x2048_0_0
abbrev rB : Rect S1x64 := Rect.unit (s := S1x64) ![0, 0] S1x64.size inb_S1x64_S1x64_0_0
abbrev rO : Rect S1024x64 := Rect.unit (s := S1024x64) ![0, 0] S1024x64.size inb_S1024x64_S1024x64_0_0

/-! ## What the body leaves in its two result buffers -/

/-- The first result buffer after the body: the gates of the first row block. -/
def gatesTop (x : Vec F S1024x2048 .f32) (w : Vec F S64x2048 .f32) (b : Vec F S1x64 .f32) : Vec F S1024x64 .f32 :=
  View.canon [⟨rO, k0_pay1 (View.ld x rX) (View.ld w rW) (View.ld b rB)⟩]

/-- The second result buffer after the body: the gates of the second row block. -/
def gatesBot (x : Vec F S1024x2048 .f32) (w : Vec F S64x2048 .f32) (b : Vec F S1x64 .f32) : Vec F S1024x64 .f32 :=
  View.canon [⟨rO, k0_pay2 (View.ld x rX) (View.ld w rW) (View.ld b rB)⟩]

/-- The one store of a result buffer covers it. -/
theorem cover_out (p0 : Vec F S1024x64 .f32) (y : S1024x64.Idx) :
    ∃ pc ∈ ([⟨rO, p0⟩] : List (View.Piece (Elt F) S1024x64 .f32)), y ∈ pc.1.set :=
  View.cover_of_tiled [⟨rO, p0⟩] S1024x64.size (by rfl) y

/-! ## The body's triple -/

set_option maxHeartbeats 1000000 in
/-- On whole buffers — the two row blocks, the weights and the bias at read contents, the two result
    buffers at anything — the body runs to its continuation with the inputs as they were and each result
    buffer at the gates of its row block. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S64x2048 .f32) (harg3 : arg3.IsWhole) (arg4 : Memref sig .tc .vmem S1x64 .f32) (harg4 : arg4.IsWhole)
    (arg5 : Memref sig .tc .vmem S1024x64 .f32) (harg5 : arg5.IsWhole) (arg6 : Memref sig .tc .vmem S1024x64 .f32) (harg6 : arg6.IsWhole)
    (x1 x2 : Vec F S1024x2048 .f32) (x3 : Vec F S64x2048 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (gatesTop x1 x3 x4)
            ∗ owns (c : Thread nD τ) arg6 fullShare (gatesBot x2 x3 x4)) -∗ K ⟨⟩))
      ⊢ wp frame (wpE (defs₀ (F := F)) Variants.none c none) E (cc0__gating_kernel i arg1 harg1 arg2 harg2 arg3 harg3 arg4 harg4 arg5 harg5 arg6 harg6) K := by
  simp only [cc0__gating_kernel_eq_skeleton]; unfold cc0__gating_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_out _)
  · iexists _; isplitr
    swap; · iexact H6
    ipureintro
    exact View.read_writes_eq_canon _ _ _ (cover_out _)

end Cert.KernelIdeal.Hand

end
-- ==== Proof.IdealData.lean ====
/-
  The proof data of the gating kernel's pipeline. The grid has four points; at point t the kernel is handed
  rows [1024·t, 1024·t + 1024) of the token matrix through one window and rows [1024·(t + 4), 1024·(t + 4) + 1024)
  of the SAME matrix through a second window, the whole weight matrix, and the bias as a row, and writes back
  block t of each of its two results. Since two windows read one array, each of them holds half of that array's
  share. After the body every input buffer holds its block, and each result buffer the gates of its row block.
-/
import proofs.«113094_g19353122636550_cont_8to1_249_11_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents up to the region -/

/-- Core `c`'s buffers at launch, -/
abbrev V0 (c : Dev nD) : Valuation τ sig (Elt F) := fun b => m (c, b)
/-- and when the region is entered: the bias has been reshaped to a row. -/
abbrev V1 (c : Dev nD) : Valuation τ sig (Elt F) := StableHlo.after hostOps0 (V0 m c)
/-- The same, read at a TensorCore reference. -/
abbrev V (c : Dev nD) (b : Ref sig .tc) : Buf (Elt F) ((c : Thread nD τ).loc b) := V1 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data
    on these arrays whose body leaves the block in place (one statement per input window). -/
theorem before_in_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gatesTop (iblk m c 0 t) (iblk m c 2 t) (iblk m c 3 t)
    | ⟨5, _⟩ => gatesBot (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = gatesTop (iblk m c 0 t) (iblk m c 2 t) (iblk m c 3 t) := by dsimp only [dats]
theorem after_5 (c : Dev nD) (t : Fin cfg0.N) :
    (dats m 0 c).after 5 t = gatesBot (iblk m c 1 t) (iblk m c 2 t) (iblk m c 3 t) := by dsimp only [dats]

theorem before_0 (c : Dev nD) (t : Fin cfg0.N) (d) : (dats m 0 c).before 0 t d = iblk m c 0 t :=
  before_in_of_0 m (dats m 0 c) (A_eq m c 0) (after_0 m c) t d
theorem before_1 (c : Dev nD) (t : Fin cfg0.N) (d) : (dats m 0 c).before 1 t d = iblk m c 1 t :=
  before_in_of_1 m (dats m 0 c) (A_eq m c 1) (after_1 m c) t d
theorem before_2 (c : Dev nD) (t : Fin cfg0.N) (d) : (dats m 0 c).before 2 t d = iblk m c 2 t :=
  before_in_of_2 m (dats m 0 c) (A_eq m c 2) (after_2 m c) t d
theorem before_3 (c : Dev nD) (t : Fin cfg0.N) (d) : (dats m 0 c).before 3 t d = iblk m c 3 t :=
  before_in_of_3 m (dats m 0 c) (A_eq m c 3) (after_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
/-
  The run of the gating program: the bias reshaped to a row, the kernel's region over its four grid points,
  and the two results joined along the rows. Between these three stretches the core holds every buffer that
  outlives a region at a named valuation. The region is entered by handing the pipeline the five arrays
  its six windows read and write — the token matrix, read by two windows, split into two half shares —
  and is left by joining the halves again and taking the two results at what the pipeline computed.
  Concluded: every fair execution terminates, the joined result holds the concatenation of the two
  computed arrays, and the three arguments end as they began.
-/
import proofs.«113094_g19353122636550_cont_8to1_249_11_alg».proof.Proof.IdealData
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between the three stretches -/

/-- What the region leaves in its first result array, -/
def topArr (c : Dev nD) : Buf (Elt F) ((c : Thread nD τ).loc main_v1_0) := (dats m 0 c).arrAt 4 cfg0.N
/-- and in its second. -/
def botArr (c : Dev nD) : Buf (Elt F) ((c : Thread nD τ).loc main_v1_1) := (dats m 0 c).arrAt 5 cfg0.N

/-- Core `c`'s buffers when the region is left: the two result arrays at what the pipeline wrote back. -/
abbrev V2 (c : Dev nD) : Valuation τ sig (Elt F) :=
  Function.update (Function.update (V1 m c) main_v1_0 (topArr m c)) main_v1_1 (botArr m c)
/-- Core `c`'s buffers at the end: the results joined. -/
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.binary_writes, Finset.singleton_subset_iff, List.mem_toFinset]; exact List.mem_map_of_mem (by decide))

theorem V1_of (c : Dev nD) (r : Ref sig .tc) (h : r ∉ ([main_v0] : List (Ref sig .tc))) : V1 m c r = V0 m c r :=
  StableHlo.after_of_writes_sub hostOps0 _ hostOps0_writes h
theorem V2_of (c : Dev nD) (r : Ref sig .tc) (h : r ∉ ([main_v1_0, main_v1_1] : List (Ref sig .tc))) : V2 m c r = V1 m c r := by
  have h0 : r ≠ main_v1_0 := fun e => h (e ▸ List.mem_cons_self)
  have h1 : r ≠ main_v1_1 := fun e => h (e ▸ List.mem_cons_of_mem _ List.mem_cons_self)
  simp only [V2, Function.update_of_ne (StableHlo.devRef_ne_of_ne h1 : (Proc.devRef .tc r : DevRef τ sig) ≠ Proc.devRef .tc main_v1_1),
    Function.update_of_ne (StableHlo.devRef_ne_of_ne h0 : (Proc.devRef .tc r : DevRef τ sig) ≠ Proc.devRef .tc main_v1_0)]
theorem V2_top (c : Dev nD) : V2 m c main_v1_0 = topArr m c := by
  simp only [V2, Function.update_of_ne (StableHlo.devRef_ne_of_ne (by decide : main_v1_0 ≠ main_v1_1) : (Proc.devRef .tc main_v1_0 : DevRef τ sig) ≠ Proc.devRef .tc main_v1_1),
    Function.update_self]
theorem V2_bot (c : Dev nD) : V2 m c main_v1_1 = botArr m c := by
  simp only [V2, Function.update_self]
theorem V3_of (c : Dev nD) (r : Ref sig .tc) (h : r ∉ ([main_v2] : List (Ref sig .tc))) : V3 m c r = V2 m c r :=
  StableHlo.after_of_writes_sub hostOps1 _ hostOps1_writes h

/-- Each argument reaches the end as launched. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl
theorem V3_main_arg2 (c : Dev nD) : V3 m c main_arg2 = m ((c : Thread nD τ).loc main_arg2) :=
  (V3_of m c main_arg2 (by decide)).trans <| (V2_of m c main_arg2 (by decide)).trans <| (V1_of m c main_arg2 (by decide)).trans rfl

/-! ## The arrays behind the windows, one by one -/

omit [FloatOps F] in
/-- The five distinct buffers behind the six windows' arrays. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1_0) ↦{fullShare} W main_v1_0)
          ∗ (((c : Thread nD τ).loc main_v1_1) ↦{fullShare} W main_v1_1)) := by
  unfold Pipeline.arrBufs
  exact bigSep_eq_bigSepL_of_eq [main_arg0, main_arg1, main_v0, main_v1_0, main_v1_1] (by decide) (by decide) _

/-- The pipeline's arrays at contents `G`, window by window: the token matrix twice, at its two half shares. -/
theorem arrays_eq (c : Dev nD) (G : (w : Fin cfg0.W) → Buf (Elt F) ((cfg0.win w).arr.view.loc (c.tc : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)
          ∗ (((c : Thread nD τ).loc main_v1_0) ↦{fullShare} G 4) ∗ (((c : Thread nD τ).loc main_v1_1) ↦{fullShare} G 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

end Cert.KernelIdeal.Hand

end
-- ==== Proof.IdealLaunch.lean ====
/-
  The three stretches of the gating program as segments, and the launch. The region's entry deals the token
  matrix to its two windows as two half shares; its exit joins them, and takes the two results at what the
  pipeline wrote back. The final state is read off the last valuation.
-/
import proofs.«113094_g19353122636550_cont_8to1_249_11_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- The pipeline has no prefetched table. -/
abbrev adm : (p : Fin 1) → (pcfgs (F := F) p).Adm := fun p => (cfgs p).toPCfg_adm

/-- What rides beside the buffers through every stretch: the core owing nothing. -/
abbrev R (c : Dev nD) : sProp 𝕄 := iprop(∃ W, owes (c : Thread nD τ) (0 : CellTallies nD τ sig Unit) W)

/-- The reshape of the bias, over the buffers that outlive a region. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-- The join of the two results, likewise. -/
def seg1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

/-- The buffers that outlive a region, held at a valuation, are the five behind the windows and the two others. -/
theorem held_eq (c : Dev nD) (W : Valuation τ sig (Elt F)) :
    (StableHlo.held (c : Thread nD τ) (Pipeline.ucRefs τ sig) W : sProp 𝕄)
      = iprop(((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1_0) ↦{fullShare} W main_v1_0)
          ∗ (((c : Thread nD τ).loc main_v1_1) ↦{fullShare} W main_v1_1))
        ∗ ((((c : Thread nD τ).loc main_arg2) ↦{fullShare} W main_arg2) ∗ (((c : Thread nD τ).loc main_v2) ↦{fullShare} W main_v2))) := by
  rw [← Pipeline.unscopedBufs_held (Ix := Unit) (Name := ℕ) (U := UR sig nD τ) (Lvl := ℕ) c W,
    Pipeline.unscopedBufs_split₀ cfgs 0 winFacts₀0.arr_unscoped c (fun b => W b), unscopedRest0_eq c (fun b => W b), arrBufs_eq c (fun b => W b)]

set_option backward.isDefEq.respectTransparency.types false in
/-- The region. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := iprop((((c : Thread nD τ).loc main_arg2) ↦{fullShare} V1 m c main_arg2) ∗ (((c : Thread nD τ).loc main_v2) ↦{fullShare} V1 m c main_v2))
  hentry c := by
    rw [held_eq c (V1 m c), arrays_eq m c]
    iintro ⟨⟨⟨⟨H0, H1, Hv0, H10, H11⟩, Ha2, Hv2⟩, HO⟩, -, -⟩
    ihave H0 := (pointsTo_share (PosShare.mem_left_op_right fullShare)).1 $$ H0
    icases H0 with ⟨H0l, H0r⟩
    imodintro
    isplitl [H0l H0r H1 Hv0 H10 H11]
    · isplitl [H0l]; · iexact H0l
      isplitl [H0r]; · iexact H0r
      isplitl [H1]; · iexact H1
      isplitl [Hv0]; · iexact Hv0
      isplitl [H10]; · iexact H10
      iexact H11
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha2]; · iexact Ha2
    iexact Hv2
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    have e0 : ∀ n, (dats m 0 c).arrAt 0 n = V1 m c main_arg0 := fun n => ((dats m 0 c).arrAt_in 0 rfl n).trans (A_eq m c 0)
    have e1 : ∀ n, (dats m 0 c).arrAt 1 n = V1 m c main_arg0 := fun n => ((dats m 0 c).arrAt_in 1 rfl n).trans (A_eq m c 1)
    have e2 : ∀ n, (dats m 0 c).arrAt 2 n = V1 m c main_arg1 := fun n => ((dats m 0 c).arrAt_in 2 rfl n).trans (A_eq m c 2)
    have e3 : ∀ n, (dats m 0 c).arrAt 3 n = V1 m c main_v0 := fun n => ((dats m 0 c).arrAt_in 3 rfl n).trans (A_eq m c 3)
    rw [held_eq c (V2 m c), arrays_eq m c, V2_of m c main_arg0 (by decide), V2_of m c main_arg1 (by decide), V2_of m c main_v0 (by decide),
      V2_top, V2_bot, V2_of m c main_arg2 (by decide), V2_of m c main_v2 (by decide)]
    simp only [e0, e1, e2, e3]
    iintro ⟨⟨H0l, H0r, H1, Hv0, H10, H11⟩, HO, -, Ha2, Hv2⟩
    ihave H0 := (pointsTo_share (PosShare.mem_left_op_right fullShare)).2 $$ [H0l H0r]
    · isplitl [H0l] <;> iassumption
    imodintro
    isplitr [HO]
    · isplitl [H0 H1 Hv0 H10 H11]
      · isplitl [H0]; · iexact H0
        isplitl [H1]; · iexact H1
        isplitl [Hv0]; · iexact Hv0
        isplitl [H10]; · iexact H10
        iexact H11
      · isplitl [Ha2]; · iexact Ha2
        iexact Hv2
    · unfold Pipeline.Dat.owesAt Pipeline.owesWithin
      icases HO with ⟨%W, -, HO⟩; iexists W; iexact HO

/-- The program as the list of its three stretches. -/
abbrev segs : List (Seg (pcfgs (F := F)) adm (dats m) () defs₀ Variants.none L lv) :=
  [.host (seg0 m), .region (reg0 m), .host (seg1 m)]

/-- The launch element: the pipeline's, at its staging cells. -/
def u₀ : UR sig nD τ := initOf (Pipeline.cells cfgs cellOf_inj) (Pipeline.launchToks cfgs cellOf_inj)

/-- The joined result at the end, from what the region wrote back: the first result's rows above the second's. -/
theorem V3_result (c : Dev nD) :
    V3 m c main_v2 = concatenate S8192x64 0 [⟨S4096x64, topArr m c⟩, ⟨S4096x64, botArr m c⟩] concatenates_S4096x64_S4096x64_S8192x64_d0 := by
  have h : V3 m c main_v2 = concatenate S8192x64 0 [⟨S4096x64, V2 m c main_v1_0⟩, ⟨S4096x64, V2 m c main_v1_1⟩] concatenates_S4096x64_S4096x64_S8192x64_d0 := by
    show StableHlo.after hostOps1 (V2 m c) (Proc.devRef .tc main_v2) = _
    after_results
  rw [h, V2_top, V2_bot]

set_option backward.isDefEq.respectTransparency.types false in
/-- From any memory with every semaphore at zero, every fair execution of the program terminates without a fault;
    at the end the joined result holds the two computed arrays one above the other, and the three arguments hold
    what they held at launch. -/
theorem run_main : θ_run defs (onTc (τ := τ) (main (F := F))) ⟨m, fun _ => 0, ρ⟩ (fun r => ∀ c : Dev nD,
      r.2.mem ((c.tc : Thread nD τ).loc main_v2) = V3 m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v2) = V3 m c main_v2
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨h (Proc.devRef .tc main_v2) (Finset.mem_filter.mpr ⟨StableHlo.devRef_mem_tcRefs main_v2, by decide⟩),
          (h (Proc.devRef .tc main_arg0) (Finset.mem_filter.mpr ⟨StableHlo.devRef_mem_tcRefs main_arg0, by decide⟩)).trans (V3_main_arg0 m c),
          (h (Proc.devRef .tc main_arg1) (Finset.mem_filter.mpr ⟨StableHlo.devRef_mem_tcRefs main_arg1, by decide⟩)).trans (V3_main_arg1 m c),
          (h (Proc.devRef .tc main_arg2) (Finset.mem_filter.mpr ⟨StableHlo.devRef_mem_tcRefs main_arg2, by decide⟩)).trans (V3_main_arg2 m c)⟩
      · iexact HSI)
    (hQ := fun _ h => h)

/-- The frame: every fair execution terminates without a fault and the arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«113094_g19353122636550_cont_8to1_249_11_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.Gating.lean ====
/-
  The gating function on the extended reals, and the two spellings of a row-wise softmax read at an index.

  For a token matrix x : [n, d], a weight matrix w : [e, d] and a bias b : [e], the logit of token r for
  expert q is  (∑ k, x(r, k) · w(q, k)) + b(q).  The softmax of a row z of logits is, with M the maximum of the
  row taken from -∞,  exp(z(q) - M) / ∑ k, exp(z(k) - M).  The gate of token r for expert q is the softmax of the
  row of logits of r, at q. Nothing here needs the entries to be finite: both programs are compared as the same
  expression of extended reals, operation by operation.
-/
import proofs.«113094_g19353122636550_cont_8to1_249_11_alg».proof.Proof.LibLaneMax
import proofs.«113094_g19353122636550_cont_8to1_249_11_alg».proof.Proof.LibLayout
import Idealize.ShloMosaic.PureOps.Ideal
import Idealize.ShloMosaic.PureOps.Ideal.Laws
import Idealize.ShloMosaic.Lib.ValueIdx
import Idealize.ShloMosaic.Lib.Pipeline.Value

noncomputable section

namespace Cert.Gating

open Idealize.ShloMosaic Idealize.ShloMosaic.ValueIdx
open scoped BigOperators

/-- The softmax of a row of extended reals, its maximum taken from -∞ (the word of f32's negative infinity). -/
def rowSoftmax {b : ℕ} (z : Fin b → EReal) (q : Fin b) : EReal :=
  Ideal.div (Ideal.exp (z q - (Finset.univ : Finset (Fin b)).fold max (Ideal.ofBits .f32 0xFF800000#32) z))
    (∑ k : Fin b, Ideal.exp (z k - (Finset.univ : Finset (Fin b)).fold max (Ideal.ofBits .f32 0xFF800000#32) z))

/-- The logit of token `r` for expert `q`. -/
def logit {n d e : ℕ} (x : (⟨2, ![n, d]⟩ : Shape).Idx → EReal) (w : (⟨2, ![e, d]⟩ : Shape).Idx → EReal)
    (b : (⟨1, ![e]⟩ : Shape).Idx → EReal) (r : Fin n) (q : Fin e) : EReal :=
  (∑ k : Fin d, x (ix2 r k) * w (ix2 q k)) + b (ix1 q)

/-- The gates of all tokens: entry (r, q) is the softmax of token r's logits, at q. -/
def gates {n d e : ℕ} (x : (⟨2, ![n, d]⟩ : Shape).Idx → EReal) (w : (⟨2, ![e, d]⟩ : Shape).Idx → EReal)
    (b : (⟨1, ![e]⟩ : Shape).Idx → EReal) : (⟨2, ![n, e]⟩ : Shape).Idx → EReal :=
  fun i => rowSoftmax (fun q => logit x w b (i 0) q) (i 1)

theorem gates_apply {n d e : ℕ} (x : (⟨2, ![n, d]⟩ : Shape).Idx → EReal) (w : (⟨2, ![e, d]⟩ : Shape).Idx → EReal)
    (b : (⟨1, ![e]⟩ : Shape).Idx → EReal) (r : Fin n) (q : Fin e) :
    gates x w b (ix2 r q) = rowSoftmax (fun q' => logit x w b r q') q := rfl

/-- The column of row maxima, kept as a column and spread back over the lanes, read at (p, k): the maximum of
    row p taken from -∞. -/
theorem maxColumn_apply {a b : ℕ} (v : FVec Ideal ⟨2, ![a, b]⟩ .f32)
    (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ) (p : Fin a) (k : Fin b) :
    broadcastTo ⟨2, ![a, b]⟩ (shapeCast ⟨2, ![a, 1]⟩ (multiReduction .maximumf [1] ⟨1, ![a]⟩ v 0xFF800000#32 hr hφ hmax) hc) hb (ix2 p k)
      = (Finset.univ : Finset (Fin b)).fold max (Ideal.ofBits .f32 0xFF800000#32) (fun k => v (ix2 p k)) := by
  rw [Cert.LibLayout.broadcastTo_a1_ab_apply, Cert.LibLayout.shapeCast_a_a1_apply, Cert.LibLaneMax.laneMax_apply]

/-- The column of row sums, kept as a column and spread back over the lanes, read at (p, k): the sum of row p. -/
theorem sumColumn_apply {a b : ℕ} (v : FVec Ideal ⟨2, ![a, b]⟩ .f32)
    (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hadd : (0x00000000#32 : BitVec 32) = FKind.add.neutral .f32 hφ) (p : Fin a) (k : Fin b) :
    broadcastTo ⟨2, ![a, b]⟩ (shapeCast ⟨2, ![a, 1]⟩ (multiReduction .add [1] ⟨1, ![a]⟩ v 0x00000000#32 hr hφ hadd) hc) hb (ix2 p k)
      = ∑ k : Fin b, v (ix2 p k) := by
  rw [Cert.LibLayout.broadcastTo_a1_ab_apply, Cert.LibLayout.shapeCast_a_a1_apply, Cert.LibLayout.laneSum_apply]

/-- THE KERNEL'S SPELLING of a row-wise softmax of a matrix of logits — lane maximum from -∞, kept as a column,
    spread back, subtracted, exponentiated, lane sum from 0, kept, spread back, divided — read at (p, q). -/
theorem kernel_softmax {a b : ℕ} (v : FVec Ideal ⟨2, ![a, b]⟩ .f32)
    (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (p : Fin a) (q : Fin b) :
    divf
        (exp (subf v (broadcastTo ⟨2, ![a, b]⟩ (shapeCast ⟨2, ![a, 1]⟩ (multiReduction .maximumf [1] ⟨1, ![a]⟩ v 0xFF800000#32 hr hφ hmax) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hmax) hc) hb)))
          0x00000000#32 hr hφ hadd) hc) hb)
        (ix2 p q)
      = rowSoftmax (fun k => v (ix2 p k)) q := by
  have he : ∀ k : Fin b,
      exp (subf v (broadcastTo ⟨2, ![a, b]⟩ (shapeCast ⟨2, ![a, 1]⟩ (multiReduction .maximumf [1] ⟨1, ![a]⟩ v 0xFF800000#32 hr hφ hmax) hc) hb)) (ix2 p k)
        = Ideal.exp (v (ix2 p k) - (Finset.univ : Finset (Fin b)).fold max (Ideal.ofBits .f32 0xFF800000#32) (fun k => v (ix2 p k))) := fun k => by
    show Ideal.exp (v (ix2 p k) - _) = _
    rw [maxColumn_apply v hr hc hb hφ hmax p k]
  rw [divf_apply, sumColumn_apply _ hr hc hb hφ hadd p q, he q]
  unfold rowSoftmax
  exact congrArg _ (Finset.sum_congr rfl fun k _ => he k)

end Cert.Gating

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.IdealBlock.lean ====
/-
  What the idealized kernel body computes for one row block, read at an index: entry (p, q) of either result
  buffer is the softmax, at q, of the row of logits of row p of the block it was handed — the products of row p
  with each row of the weight matrix, plus the bias row.
-/
import proofs.«113094_g19353122636550_cont_8to1_249_11_alg».proof.Proof.Gen.KernelIdeal.Skeleton
import proofs.«113094_g19353122636550_cont_8to1_249_11_alg».proof.Proof.Gating
import proofs.«113094_g19353122636550_cont_8to1_249_11_alg».proof.Proof.LibLanes

noncomputable section

namespace Cert.KernelIdeal.Hand

open Cert.KernelIdeal Cert.KernelIdeal.Gen
open Idealize.ShloMosaic Idealize.ShloMosaic.ValueIdx Cert.Gating
open scoped BigOperators

/-- The product's dimension record: lanes against lanes. -/
abbrev dd : DotDims S1024x2048 S64x2048 S1024x64 := dot_S1024x2048_S64x2048_S1024x64_1_1_0_0_n_n

/-! ## The product's dimension record: which coordinates of its operands an output entry and a lane select -/

theorem dd_l0 (i : S1024x64.Idx) (s : dd.contr.Idx) : (dd.lhsIdx i s 0).val = (i 0).val := by
  unfold DotDims.lhsIdx
  rw [dif_neg (show ¬(0 : Fin S1024x2048.rank) ∈ dd.lhsBatch by decide), dif_pos (show (0 : Fin S1024x2048.rank) ∈ dd.lhsNonContracting by decide)]
  rfl
theorem dd_l1 (i : S1024x64.Idx) (s : dd.contr.Idx) : (dd.lhsIdx i s 1).val = (s ⟨0, by decide⟩).val :=
  dd.lhsIdx_val_of_single rfl i s
theorem dd_r0 (i : S1024x64.Idx) (s : dd.contr.Idx) : (dd.rhsIdx i s 0).val = (i 1).val := by
  unfold DotDims.rhsIdx
  rw [dif_neg (show ¬(0 : Fin S64x2048.rank) ∈ dd.rhsBatch by decide), dif_pos (show (0 : Fin S64x2048.rank) ∈ dd.rhsNonContracting by decide)]
  rfl
theorem dd_r1 (i : S1024x64.Idx) (s : dd.contr.Idx) : (dd.rhsIdx i s 1).val = (s ⟨0, by decide⟩).val :=
  dd.rhsIdx_val_of_single rfl i s

/-- The block's logits: the product into zero plus the bias row spread over the rows, at (p, q). -/
theorem blockLogits_apply (x : FVec Ideal S1024x2048 .f32) (w : FVec Ideal S64x2048 .f32) (b : FVec Ideal S1x64 .f32)
    (p : Fin 1024) (q : Fin 64) :
    addf (matmul dd none x w (constant (F := Ideal) S1024x64 .f32 0x00000000#32))
        (broadcastTo S1024x64 (shapeCast S1x64 b shapeCasts_S1x64_S1x64) broadcasts_S1x64_S1024x64) (ix2 p q)
      = (∑ k : Fin 2048, x (ix2 p k) * w (ix2 q k)) + b (ix2 (0 : Fin 1) q) := by
  rw [addf_apply, Cert.LibLanes.matmul_lanes dd rfl rfl dd_l0 dd_l1 dd_r0 dd_r1 x w p q, broadcastTo_1b_ab_apply,
    shapeCast_self]

/-- The first result buffer's payload at (p, q). -/
theorem payTop_apply (x : Vec Ideal S1024x2048 .f32) (w : Vec Ideal S64x2048 .f32) (b : Vec Ideal S1x64 .f32)
    (p : Fin 1024) (q : Fin 64) :
    k0_pay1 (F := Ideal) x w b (ix2 p q)
      = rowSoftmax (fun q' => (∑ k : Fin 2048, x (ix2 p k) * w (ix2 q' k)) + b (ix2 (0 : Fin 1) q')) q := by
  unfold k0_pay1
  refine (kernel_softmax _ reduces_S1024x64_S1024 shapeCasts_S1024_S1024x1 broadcasts_S1024x1_S1024x64 (.inl rfl) rfl rfl p q).trans ?_
  exact congrArg (fun z => rowSoftmax z q) (funext fun q' => blockLogits_apply x w b p q')

/-- The second result buffer's payload at (p, q): the same function of its own block. -/
theorem payBot_apply (x : Vec Ideal S1024x2048 .f32) (w : Vec Ideal S64x2048 .f32) (b : Vec Ideal S1x64 .f32)
    (p : Fin 1024) (q : Fin 64) :
    k0_pay2 (F := Ideal) x w b (ix2 p q)
      = rowSoftmax (fun q' => (∑ k : Fin 2048, x (ix2 p k) * w (ix2 q' k)) + b (ix2 (0 : Fin 1) q')) q := by
  unfold k0_pay2
  refine (kernel_softmax _ reduces_S1024x64_S1024 shapeCasts_S1024_S1024x1 broadcasts_S1024x1_S1024x64 (.inl rfl) rfl rfl p q).trans ?_
  exact congrArg (fun z => rowSoftmax z q) (funext fun q' => blockLogits_apply x w b p q')

end Cert.KernelIdeal.Hand

end
-- ==== Proof.IdealValue.lean ====
/-
  From blocks to arrays. At grid point t the kernel writes back rows [1024·t, 1024·t + 1024) of each of its two
  results; the first holds the gates of rows [1024·t, …) of the token matrix, the second the gates of rows
  [1024·(t + 4), …). The four points' blocks tile each 4096-row result, so after the run the first result holds
  the gates of tokens 0 … 4095 and the second those of tokens 4096 … 8191; joined along the rows they are the
  gates of all 8192 tokens.
-/
import proofs.«113094_g19353122636550_cont_8to1_249_11_alg».proof.Proof.IdealLaunch
import proofs.«113094_g19353122636550_cont_8to1_249_11_alg».proof.Proof.IdealBlock

set_option maxRecDepth 16384

noncomputable section

namespace Cert.KernelIdeal.Hand

open Cert.KernelIdeal Cert.KernelIdeal.Gen
open Idealize.ShloMosaic Idealize.ShloMosaic.TcCoe Idealize.ShloMosaic.ValueIdx Cert.Gating
open Idealize.SL Idealize.SL.Sem
open Idealize.ShloMosaic.Pipeline (Dat Cfg Window)
open scoped BigOperators

variable (m : (ℓ : Loc nD τ sig) → Buf (Elt Ideal) ℓ)

theorem hz : (![0, 0] : Fin 2 → Nat) = fun _ => 0 := funext fun a => by fin_cases a <;> rfl

/-- The printed index maps over the four grid points: the first token window and both results move with the
    point, the second token window four blocks ahead of it, the weights and the bias stay. -/
theorem idx_facts : ∀ t : Fin cfg0.N,
    win0_0.index t (0 : Fin 2) = t.val ∧ win0_0.index t (1 : Fin 2) = 0
    ∧ win0_1.index t (0 : Fin 2) = t.val + 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 ∧ t.val < 4 :=
  (by decide +kernel : ∀ t : Fin grid0.N, _)

/-! ## The arrays the region finds, and each window's block read at an index -/

/-- The token matrix, the weights and the bias row as the region finds them. -/
abbrev tokens (c : Dev nD) : S8192x2048.Idx → EReal := V m c main_arg0
abbrev weights (c : Dev nD) : S64x2048.Idx → EReal := V m c main_arg1
abbrev biasRow (c : Dev nD) : S1x64.Idx → EReal := V m c main_v0

theorem blk0_apply (c : Dev nD) (t : Fin cfg0.N) (p : Fin 1024) (k : Fin 2048) (h : t.val * 1024 + p.val < 8192) :
    iblk m c 0 t (ix2 p k) = tokens m c (ix2 ⟨t.val * 1024 + p.val, h⟩ k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = t.val * 1024 + p.val; omega
  | ⟨1, _⟩ => show win0_0.index t (1 : Fin 2) * 2048 + 1 * k.val = k.val; omega

theorem blk1_apply (c : Dev nD) (t : Fin cfg0.N) (p : Fin 1024) (k : Fin 2048) (h : t.val * 1024 + p.val + 4096 < 8192) :
    iblk m c 1 t (ix2 p k) = tokens m c (ix2 ⟨t.val * 1024 + p.val + 4096, h⟩ k) := by
  obtain ⟨-, -, e0, e1, -⟩ := idx_facts t
  show V m c main_arg0 (((cfg0.win 1).blk t).view.emb (ix2 p k)) = _
  refine congrArg (V m c main_arg0) (funext fun a => Fin.ext ?_)
  match a with
  | ⟨0, _⟩ => show win0_1.index t (0 : Fin 2) * 1024 + 1 * p.val = t.val * 1024 + p.val + 4096; omega
  | ⟨1, _⟩ => show win0_1.index t (1 : Fin 2) * 2048 + 1 * k.val = k.val; omega

theorem blk2_apply (c : Dev nD) (t : Fin cfg0.N) (q : Fin 64) (k : Fin 2048) :
    iblk m c 2 t (ix2 q k) = weights m c (ix2 q k) := by
  obtain ⟨-, -, -, -, e0, e1, -⟩ := idx_facts t
  show V m c main_arg1 (((cfg0.win 2).blk t).view.emb (ix2 q k)) = _
  refine congrArg (V m c main_arg1) (funext fun a => Fin.ext ?_)
  match a with
  | ⟨0, _⟩ => show win0_2.index t (0 : Fin 2) * 64 + 1 * q.val = q.val; omega
  | ⟨1, _⟩ => show win0_2.index t (1 : Fin 2) * 2048 + 1 * k.val = k.val; omega

theorem blk3_apply (c : Dev nD) (t : Fin cfg0.N) (q : Fin 64) :
    iblk m c 3 t (ix2 (0 : Fin 1) q) = biasRow m c (ix2 (0 : Fin 1) q) := by
  obtain ⟨-, -, -, -, -, -, e0, e1, -⟩ := idx_facts t
  show V m c main_v0 (((cfg0.win 3).blk t).view.emb (ix2 (0 : Fin 1) q)) = _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-! ## What each result array ends holding -/

/-- The gate of token `r` for expert `q`, from the arrays the region finds. -/
def gateAt (c : Dev nD) (r : Fin 8192) (q : Fin 64) : EReal :=
  rowSoftmax (fun q' => (∑ k : Fin 2048, tokens m c (ix2 r k) * weights m c (ix2 q' k)) + biasRow m c (ix2 (0 : Fin 1) q')) q

/-- The first result: row r holds the gates of token r. -/
def topGates (c : Dev nD) : S4096x64.Idx → EReal := fun i => gateAt m c ⟨(i 0).val, by have h : (i 0).val < 4096 := (i 0).isLt; omega⟩ (i 1)
/-- The second result: row r holds the gates of token r + 4096. -/
def botGates (c : Dev nD) : S4096x64.Idx → EReal := fun i => gateAt m c ⟨(i 0).val + 4096, by have h : (i 0).val < 4096 := (i 0).isLt; omega⟩ (i 1)

/-- What point t writes back to the first result is block t of `topGates`. -/
theorem flushedTop_eq (c : Dev nD) (t : Fin cfg0.N) :
    (dats m 0 c).flushed 4 t = ((cfg0.win 4).blk t).view.read (Elt Ideal) (topGates m c) := by
  show (cfg0.win 4).cut (grid0.coords t) ((dats m 0 c).after 4 t) = _
  rw [after_4]
  unfold gatesTop
  rw [View.canon_unit_zero hz]
  simp only [View.ld_unit_zero (S := S1024x2048) hz, View.ld_unit_zero (S := S64x2048) hz, View.ld_unit_zero (S := S1x64) hz]
  obtain ⟨-, -, -, -, -, -, -, -, e0, e1, -, -, ht⟩ := idx_facts t
  funext j
  obtain ⟨p, q, rfl⟩ : ∃ (p : Fin 1024) (q : Fin 64), j = ix2 p q := ⟨j 0, j 1, eq_ix2 j⟩
  have hp := p.isLt
  have hrow : (((cfg0.win 4).blk t).view.emb (ix2 p q) : S4096x64.Idx) = ix2 ⟨t.val * 1024 + p.val, by omega⟩ q := funext fun a => Fin.ext (by
    match a with
    | ⟨0, _⟩ => show win0_4.index t (0 : Fin 2) * 1024 + 1 * p.val = t.val * 1024 + p.val; omega
    | ⟨1, _⟩ => show win0_4.index t (1 : Fin 2) * 64 + 1 * q.val = q.val; omega)
  show k0_pay1 (F := Ideal) (iblk m c 0 t) (iblk m c 2 t) (iblk m c 3 t) (ix2 p q) = topGates m c (((cfg0.win 4).blk t).view.emb (ix2 p q))
  rw [hrow, payTop_apply]
  unfold topGates gateAt
  refine congrArg (fun z => rowSoftmax z q) (funext fun q' => ?_)
  rw [blk3_apply m c t q']
  refine congrArg (· + _) (Finset.sum_congr rfl fun k _ => ?_)
  rw [blk0_apply m c t p k (by omega), blk2_apply m c t q' k]

/-- What point t writes back to the second result is block t of `botGates`. -/
theorem flushedBot_eq (c : Dev nD) (t : Fin cfg0.N) :
    (dats m 0 c).flushed 5 t = ((cfg0.win 5).blk t).view.read (Elt Ideal) (botGates m c) := by
  show (cfg0.win 5).cut (grid0.coords t) ((dats m 0 c).after 5 t) = _
  rw [after_5]
  unfold gatesBot
  rw [View.canon_unit_zero hz]
  simp only [View.ld_unit_zero (S := S1024x2048) hz, View.ld_unit_zero (S := S64x2048) hz, View.ld_unit_zero (S := S1x64) hz]
  obtain ⟨-, -, -, -, -, -, -, -, -, -, e0, e1, ht⟩ := idx_facts t
  funext j
  obtain ⟨p, q, rfl⟩ : ∃ (p : Fin 1024) (q : Fin 64), j = ix2 p q := ⟨j 0, j 1, eq_ix2 j⟩
  have hp := p.isLt
  have hrow : (((cfg0.win 5).blk t).view.emb (ix2 p q) : S4096x64.Idx) = ix2 ⟨t.val * 1024 + p.val, by omega⟩ q := funext fun a => Fin.ext (by
    match a with
    | ⟨0, _⟩ => show win0_5.index t (0 : Fin 2) * 1024 + 1 * p.val = t.val * 1024 + p.val; omega
    | ⟨1, _⟩ => show win0_5.index t (1 : Fin 2) * 64 + 1 * q.val = q.val; omega)
  show k0_pay2 (F := Ideal) (iblk m c 1 t) (iblk m c 2 t) (iblk m c 3 t) (ix2 p q) = botGates m c (((cfg0.win 5).blk t).view.emb (ix2 p q))
  rw [hrow, payBot_apply]
  unfold botGates gateAt
  refine congrArg (fun z => rowSoftmax z q) (funext fun q' => ?_)
  rw [blk3_apply m c t q']
  refine congrArg (· + _) (Finset.sum_congr rfl fun k _ => ?_)
  rw [blk1_apply m c t p k (by omega), blk2_apply m c t q' k]

/-- An index of a result array is in point t's block iff its row is among the block's 1024 rows. -/
theorem mem_blkTop (t : Fin cfg0.N) (i : S4096x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v1_0).slice (win0_4.rect t)).set ↔ _
  rw [View.set_slice_whole, Rect.mem_set_unit]
  exact Iff.rfl
theorem mem_blkBot (t : Fin cfg0.N) (i : S4096x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v1_1).slice (win0_5.rect t)).set ↔ _
  rw [View.set_slice_whole, Rect.mem_set_unit]
  exact Iff.rfl

/-- Row r of a result lies in the block of point r / 1024. -/
theorem coverTop (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  let t : Fin cfg0.N := ⟨(i 0).val / 1024, by show (i 0).val / 1024 < grid0.N; rw [N_0]; omega⟩
  obtain ⟨-, -, -, -, -, -, -, -, e0, e1, -⟩ := idx_facts t
  have ht : t.val = (i 0).val / 1024 := rfl
  refine ⟨t, flush0_4 t, ?_⟩
  rw [mem_blkTop]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 64 ≤ (i 1).val ∧ (i 1).val < win0_4.index t (1 : Fin 2) * 64 + 64; omega
theorem coverBot (i : S4096x64.Idx) : ∃ t : Fin cfg0.N, (cfg0.win 5).flush t = true ∧ i ∈ ((cfg0.win 5).blk t).view.set := by
  have hi0 : (i 0).val < 4096 := (i 0).isLt
  have hi1 : (i 1).val < 64 := (i 1).isLt
  let t : Fin cfg0.N := ⟨(i 0).val / 1024, by show (i 0).val / 1024 < grid0.N; rw [N_0]; omega⟩
  obtain ⟨-, -, -, -, -, -, -, -, -, -, e0, e1, -⟩ := idx_facts t
  have ht : t.val = (i 0).val / 1024 := rfl
  refine ⟨t, flush0_5 t, ?_⟩
  rw [mem_blkBot]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 64 ≤ (i 1).val ∧ (i 1).val < win0_5.index t (1 : Fin 2) * 64 + 64; omega

/-- After the run the two results hold the gates of the first and of the second 4096 tokens. -/
theorem topArr_eq (c : Dev nD) : topArr m c = topGates m c :=
  (dats m 0 c).arrAt_eq_of_cover 4 (topGates m c) (fun t _ => flushedTop_eq m c t) coverTop
theorem botArr_eq (c : Dev nD) : botArr m c = botGates m c :=
  (dats m 0 c).arrAt_eq_of_cover 5 (botGates m c) (fun t _ => flushedBot_eq m c t) coverBot

end Cert.KernelIdeal.Hand

end
-- ==== Proof.IdealJoin.lean ====
/-
  The idealized kernel's result as one function of its arguments: the two 4096-row results joined along the rows
  are the gates of all 8192 tokens. The arrays the region finds are the launch's token matrix and weights, and the
  bias as a row (a reshape keeps the entries in order, so entry (0, q) of the row is entry q of the bias).
-/
import proofs.«113094_g19353122636550_cont_8to1_249_11_alg».proof.Proof.IdealValue

set_option maxRecDepth 16384

noncomputable section

namespace Cert.KernelIdeal.Hand

open Cert.KernelIdeal Cert.KernelIdeal.Gen
open Idealize.ShloMosaic Idealize.ShloMosaic.TcCoe Idealize.ShloMosaic.ValueIdx Cert.Gating
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The arrays the region finds, from the launch's -/

theorem tokens_eq (c : Dev nD) : tokens m c = m ((c : Thread nD τ).loc main_arg0) := V1_of m c main_arg0 (by decide)
theorem weights_eq (c : Dev nD) : weights m c = m ((c : Thread nD τ).loc main_arg1) := V1_of m c main_arg1 (by decide)

/-- The bias row is the bias, reshaped. -/
theorem biasRow_eq (c : Dev nD) : biasRow m c = shapeCast S1x64 (m ((c : Thread nD τ).loc main_arg2)) shapeCasts_S64_S1x64 := by
  show StableHlo.after hostOps0 (V0 m c) (Proc.devRef .tc main_v0) = _
  after_results
  rfl

/-- Entry (0, q) of the bias row is entry q of the bias. -/
theorem biasRow_apply (c : Dev nD) (q : Fin 64) : biasRow m c (ix2 (0 : Fin 1) q) = m ((c : Thread nD τ).loc main_arg2) (ix1 q) := by
  rw [biasRow_eq]
  refine shapeCast_apply _ shapeCasts_S64_S1x64 _ _ ?_
  rw [Shape.rowMajor_val_one, Shape.rowMajor_val_two]
  show q.val = 0 * 64 + q.val
  omega

/-- The gate of a token from the region's arrays is its gate from the launch's. -/
theorem gateAt_eq (c : Dev nD) (r : Fin 8192) (q : Fin 64) :
    gateAt m c r q
      = gates (m ((c : Thread nD τ).loc main_arg0)) (m ((c : Thread nD τ).loc main_arg1)) (m ((c : Thread nD τ).loc main_arg2)) (ix2 r q) := by
  rw [gates_apply]
  unfold gateAt logit
  rw [tokens_eq, weights_eq]
  exact congrArg (fun z => rowSoftmax z q) (funext fun q' => by rw [biasRow_apply])

/-! ## The joined result -/

/-- THE RESULT: the array the program returns holds the gates of its arguments. -/
theorem result_eq (c : Dev nD) :
    V3 m c main_v2
      = gates (m ((c : Thread nD τ).loc main_arg0)) (m ((c : Thread nD τ).loc main_arg1)) (m ((c : Thread nD τ).loc main_arg2)) := by
  rw [V3_result, topArr_eq, botArr_eq]
  funext i
  obtain ⟨r, q, rfl⟩ : ∃ (r : Fin 8192) (q : Fin 64), i = ix2 r q := ⟨i 0, i 1, eq_ix2 i⟩
  by_cases hr : r.val < 4096
  · refine (concatenate_pair_apply_left (0 : Fin 2) (topGates m c) (botGates m c) concatenates_S4096x64_S4096x64_S8192x64_d0 (ix2 r q) rfl
      (ix2 (⟨r.val, hr⟩ : Fin 4096) q) (fun b => ?_)).trans ?_
    · match b with
      | ⟨0, _⟩ => exact (rfl : r.val = r.val)
      | ⟨1, _⟩ => exact (rfl : q.val = q.val)
    exact gateAt_eq m c _ q
  · have hr' : r.val - 4096 < 4096 := by have := r.isLt; omega
    refine (concatenate_pair_apply_right (0 : Fin 2) (topGates m c) (botGates m c) concatenates_S4096x64_S4096x64_S8192x64_d0 (ix2 r q) rfl rfl
      (ix2 (⟨r.val - 4096, hr'⟩ : Fin 4096) q) (fun b hb => ?_) ?_).trans ?_
    · rcases b with ⟨_ | _ | n, hn⟩
      · exact absurd (Fin.ext rfl) hb
      · exact (rfl : q.val = q.val)
      · exact absurd hn (Nat.not_lt.2 (Nat.le_add_left 2 n))
    · show r.val - 4096 + 4096 = r.val; omega
    have e : (⟨r.val - 4096 + 4096, by omega⟩ : Fin 8192) = r := Fin.ext (by show r.val - 4096 + 4096 = r.val; omega)
    show gateAt m c ⟨r.val - 4096 + 4096, _⟩ q = _
    rw [gateAt_eq]
    exact congrArg (fun r' => gates _ _ _ (ix2 r' q)) e

/-- The idealized kernel's run: it terminates without a fault, the result holds the gates of the arguments, and the
    arguments end as they began. -/
theorem run : θ_run defs (onTc (τ := τ) (main (F := Ideal))) ⟨m, fun _ => 0, ρ⟩ (fun r => ∀ c : Dev nD,
      r.2.mem ((c.tc : Thread nD τ).loc main_v2)
        = gates (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩) (run_main m ρ)

end Cert.KernelIdeal.Hand

end
-- ==== Proof.RefGates.lean ====
/-
  The reference's result, read at an index: entry (R, q) of the array it returns is the gate of token R for
  expert q. The reference transposes the weights before the product (so the product still pairs x(R, k) with
  w(q, k)), takes the row maximum from -∞ and then once more against -∞ (which changes nothing), and sums the
  exponentials from 0 (which adds nothing).
-/
import proofs.«113094_g19353122636550_cont_8to1_249_11_alg».proof.Proof.Gen.ReferenceIdeal.Read
import proofs.«113094_g19353122636550_cont_8to1_249_11_alg».proof.Proof.Gating
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Gating
open scoped BigOperators

/-- The word of f32's negative infinity is the bottom of the extended reals, -/
theorem negInf_eq : Ideal.ofBits .f32 0xFF800000#32 = (⊥ : EReal) := by simp [Ideal.ofBits, Ideal.ieee]
/-- so a maximum against it is the other operand. -/
theorem negInf_max (y : EReal) : max (Ideal.ofBits .f32 0xFF800000#32) y = y := by
  rw [negInf_eq]; exact max_eq_right bot_le

variable (x0 : (⟨S8192x2048, .f32⟩ : BufTy).Contents (Elt Ideal)) (x1 : (⟨S64x2048, .f32⟩ : BufTy).Contents (Elt Ideal))
  (x2 : (⟨S64, .f32⟩ : BufTy).Contents (Elt Ideal))

/-- The row-reduction shape fact, in the form that names the inserted index. -/
theorem hred : S8192x64.Reduces [1] S8192 := by decide

/-- The reference's logits. -/
theorem logits_apply (R : Fin 8192) (q : Fin 64) :
    val_main_v4 (F := Ideal) x0 x1 x2 (ix2 R q) = logit x0 x1 x2 R q := by
  rw [val_main_v4_apply, val_main_v1_apply, val_main_v3_apply, val_main_v2_apply]
  simp only [val_main_v0_apply]
  have e1 : ∀ k, lidx_main_v1 (ix2 R q) k = ix2 R k := fun k => funext fun a => Fin.ext (by
    match a with
    | ⟨0, _⟩ => rfl
    | ⟨1, _⟩ => rfl)
  have e2 : ∀ k, idx_main_v0 (ridx_main_v1 (ix2 R q) k) = ix2 q k := fun k => funext fun a => Fin.ext (by
    match a with
    | ⟨0, _⟩ => rfl
    | ⟨1, _⟩ => rfl)
  have e3 : idx_main_v2 (idx_main_v3 (ix2 R q)) = ix1 q := funext fun a => Fin.ext (by
    match a with
    | ⟨0, _⟩ => rfl)
  simp only [e1, e2, e3]
  rfl

/-- The reference's row maximum. -/
theorem rowMax_apply (R : Fin 8192) :
    val_main_v7 (F := Ideal) x0 x1 x2 (ix1 R)
      = (Finset.univ : Finset (Fin 64)).fold max (Ideal.ofBits .f32 0xFF800000#32) (fun q => logit x0 x1 x2 R q) := by
  rw [val_main_v7_apply, val_main_v6_apply, val_main_cst_0_apply]
  unfold val_main_v5
  rw [Host.reduce_eq_fold_single FloatOps.maximumf _ _ reducesTo_S8192x64_S8192_d1 hred h_S_]
  have hl : (val_main_v4 (F := Ideal) x0 x1 x2 ∘ hred.lift (ix1 R)) = fun q : Fin 64 => logit x0 x1 x2 R q := funext fun (q : Fin 64) => by
    show val_main_v4 (F := Ideal) x0 x1 x2 (hred.lift (ix1 R) q) = _
    rw [Cert.LibLayout.lift_row hred R q, logits_apply]
  rw [hl]
  exact negInf_max _

/-- The reference's exponentials. -/
theorem exps_apply (R : Fin 8192) (q : Fin 64) :
    val_main_v11 (F := Ideal) x0 x1 x2 (ix2 R q)
      = Ideal.exp (logit x0 x1 x2 R q - (Finset.univ : Finset (Fin 64)).fold max (Ideal.ofBits .f32 0xFF800000#32) (fun q => logit x0 x1 x2 R q)) := by
  rw [val_main_v11_apply, val_main_v10_apply, val_main_v9_apply, val_main_v8_apply, logits_apply]
  have e : idx_main_v8 (idx_main_v9 (ix2 R q)) = ix1 R := funext fun a => Fin.ext (by
    match a with
    | ⟨0, _⟩ => rfl)
  rw [e, rowMax_apply]
  rfl

/-- THE REFERENCE'S RESULT at (R, q) is the gate of token R for expert q. -/
theorem result_apply (R : Fin 8192) (q : Fin 64) :
    val_main_v15 (F := Ideal) x0 x1 x2 (ix2 R q) = gates x0 x1 x2 (ix2 R q) := by
  rw [gates_apply, val_main_v15_apply, val_main_v14_apply, val_main_v13_apply, val_main_v12_apply, exps_apply, val_main_cst_1_apply]
  have e : ∀ k, idx_main_v12 (idx_main_v13 (idx_main_v14 (ix2 R q))) k = ix2 R k := fun k => funext fun a => Fin.ext (by
    match a with
    | ⟨0, _⟩ => rfl
    | ⟨1, _⟩ => rfl)
  simp only [e, exps_apply]
  unfold rowSoftmax
  show Ideal.div _ (Ideal.ofBits .f32 0x00000000#32 + _) = _
  rw [Ideal.ofBits_zero_f32, zero_add]

/-- The reference's result array is the gates of the arguments. -/
theorem result_eq : val_main_v15 (F := Ideal) x0 x1 x2 = gates x0 x1 x2 :=
  funext fun i => by rw [eq_ix2 i]; exact result_apply x0 x1 x2 (i 0) (i 1)

end Cert.ReferenceIdeal.RefValue

end
-- ==== Proof.lean ====
/-
  The gating network  gates = softmax(x · Wᵀ + b)  over 64 experts, for 8192 tokens of width 2048.

  The kernel streams the token matrix as two concurrent row-block streams — the top half and the bottom half of
  the SAME array, through two windows — against the resident weights and bias, computes for each 1024-row block
  the logits, their row maximum, the exponentials of the differences and their row sums, and writes the quotients
  into two 4096-row results, which the host then joins along the rows. The reference computes the same expression
  on the whole arrays at once (with the weights transposed before the product, and the row maximum taken once more
  against -∞).

  Frames. Each kernel program is run as three stretches: the reshape of the bias, the region, the join. Two windows
  on one array cannot both hold it whole, so at the region's entry the token matrix is dealt to them as two half
  shares, which are joined again at its exit; everything else is the pipeline's own account of staged blocks.
  The reference is a straight line of host operations.

  Values. On the extended reals both programs compute, at (r, q),
      exp(z_r(q) - M_r) / ∑ q', exp(z_r(q') - M_r),   z_r(q) = (∑ k, x(r, k) · w(q, k)) + b(q),   M_r = max over q of z_r(q) from -∞,
  operation by operation the same expression: a product into a zero accumulator against a general product over the
  same lanes, a lane reduction against a host reduction over the same row, a maximum against -∞ that changes nothing,
  a sum from 0 that adds nothing, and the four blocks of each result tiling it. No law that could fail at an infinity
  is used, so the inputs' finiteness is never opened.
-/
import proofs.«113094_g19353122636550_cont_8to1_249_11_alg».proof.Defs
import proofs.«113094_g19353122636550_cont_8to1_249_11_alg».proof.Proof.Gen.Kernel
import proofs.«113094_g19353122636550_cont_8to1_249_11_alg».proof.Proof.Gen.KernelIdeal
import proofs.«113094_g19353122636550_cont_8to1_249_11_alg».proof.Proof.Gen.ReferenceIdeal
import proofs.«113094_g19353122636550_cont_8to1_249_11_alg».proof.Proof.Gen.Pre_finite_inputs
import proofs.«113094_g19353122636550_cont_8to1_249_11_alg».proof.Proof.Gen.ReferenceIdeal.Run
import proofs.«113094_g19353122636550_cont_8to1_249_11_alg».proof.Proof.BitsLaunch
import proofs.«113094_g19353122636550_cont_8to1_249_11_alg».proof.Proof.IdealJoin
import proofs.«113094_g19353122636550_cont_8to1_249_11_alg».proof.Proof.RefGates
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as they were. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the gates of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
